-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S256x256 : Shape := ⟨2, ![256, 256]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S256x256 1) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x256 : Shape := ⟨2, ![256, 256]⟩
abbrev S256x16x256 : Shape := ⟨3, ![256, 16, 256]⟩
abbrev S4096x256 : Shape := ⟨2, ![4096, 256]⟩
abbrev S4096x256x16 : Shape := ⟨3, ![4096, 256, 16]⟩
abbrev S_ : Shape := ⟨0, ![]⟩
abbrev S1x4096 : Shape := ⟨2, ![1, 4096]⟩
abbrev S2048x1024 : Shape := ⟨2, ![2048, 1024]⟩
abbrev S1x2048 : Shape := ⟨2, ![1, 2048]⟩
abbrev S2048x2048 : Shape := ⟨2, ![2048, 2048]⟩

abbrev nBuf : Space → Nat
  | .hbm => 17
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S256x256, .i1⟩
  | .hbm, ⟨4, _⟩ => ⟨S256x256, .f32⟩
  | .hbm, ⟨5, _⟩ => ⟨S256x16x256, .f32⟩
  | .hbm, ⟨6, _⟩ => ⟨S4096x256, .f32⟩
  | .hbm, ⟨7, _⟩ => ⟨S4096x256x16, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S8192x4096, .bf16⟩
  | .hbm, ⟨15, _⟩ => ⟨S1x4096, .f32⟩
  | .hbm, ⟨16, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S256x256_S256x16x256_0_2 : S256x256.BroadcastsInDim S256x16x256 (![0, 2] : Fin 2 → Fin S256x16x256.rank)
  shapeCasts_S256x16x256_S4096x256 : S256x16x256.ShapeCasts S4096x256
  bcast_S4096x256_S4096x256x16_0_1 : S4096x256.BroadcastsInDim S4096x256x16 (![0, 1] : Fin 2 → Fin S4096x256x16.rank)
  shapeCasts_S4096x256x16_S4096x4096 : S4096x256x16.ShapeCasts S4096x4096
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S2048x1024_S2048x1024_S2048x2048_1_1_0_0_n_n_wf : DotDims.WF S2048x1024 S2048x1024 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x4096.size a
  hwx0_3 : ∀ i : grid0.Coords, EltTy.bits .f32 = 32 ∨ (Rect.block (s := S8192x4096) S2048x2048.size (cc0_transform_3 i) (hinb0_3 i)).WholeWords (EltTy.packing .f32)

variable [Facts₀]

def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf

abbrev win0_0 : Pipeline.Window sig grid0 :=
  Pipeline.Window.ofSpec (Memref.whole main_v9) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S256x256 : Shape := ⟨2, ![256, 256]⟩
abbrev S256x16x256 : Shape := ⟨3, ![256, 16, 256]⟩
abbrev S4096x256 : Shape := ⟨2, ![4096, 256]⟩
abbrev S4096x256x16 : Shape := ⟨3, ![4096, 256, 16]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S256x256, .i1⟩
  | .hbm, ⟨4, _⟩ => ⟨S256x16x256, .i1⟩
  | .hbm, ⟨5, _⟩ => ⟨S4096x256, .i1⟩
  | .hbm, ⟨6, _⟩ => ⟨S4096x256x16, .i1⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S256x256_S256x16x256_0_2 : S256x256.BroadcastsInDim S256x16x256 (![0, 2] : Fin 2 → Fin S256x16x256.rank)
  shapeCasts_S256x16x256_S4096x256 : S256x16x256.ShapeCasts S4096x256
  bcast_S4096x256_S4096x256x16_0_1 : S4096x256.BroadcastsInDim S4096x256x16 (![0, 1] : Fin 2 → Fin S4096x256x16.rank)
  shapeCasts_S4096x256x16_S4096x4096 : S4096x256x16.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BodyAt.lean ====
/-
  The kernel body's three stored values, read at one entry of the 2048 × 2048 output block.

  The body keeps its output block as an accumulator: it stores zero at the first step of a run, adds the product of
  the step's two input blocks (rows of `x` against rows of the weight, contracted over the step's 1024 columns) at
  every step, and adds the bias row at the last.  At the exact instance the block product at `(p, q)` is the plain sum
  over `k` of `x (p, k) · w (q, k)`.
-/
import proofs.«132253_j77730318123392_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.MaskedLinear.Body

open Cert.KernelIdeal Cert.KernelIdeal.Gen Idealize.ShloMosaic Idealize.ShloMosaic.ValueIdx

/-- The store that opens a run writes zero everywhere. -/
theorem zero_apply (j : S2048x2048.Idx) : k0_pay1 (F := Ideal) j = 0 := by
  unfold k0_pay1
  show Ideal.ofBits .f32 0x00000000#32 = 0
  exact Ideal.ofBits_zero_f32

/-- The left operand of the block product is read at the output's row. -/
theorem lhs_row (j : S2048x2048.Idx) (q : dot_S2048x1024_S2048x1024_S2048x2048_1_1_0_0_n_n.contr.Idx) :
    (dot_S2048x1024_S2048x1024_S2048x2048_1_1_0_0_n_n.lhsIdx j q 0).val = (j 0).val := by
  unfold DotDims.lhsIdx
  rw [dif_neg (show ¬(0 : Fin S2048x1024.rank) ∈ dot_S2048x1024_S2048x1024_S2048x2048_1_1_0_0_n_n.lhsBatch by decide),
    dif_pos (show (0 : Fin S2048x1024.rank) ∈ dot_S2048x1024_S2048x1024_S2048x2048_1_1_0_0_n_n.lhsNonContracting by decide)]
  rfl

/-- The right operand of the block product is read at the output's column, as a row of the weight block. -/
theorem rhs_row (j : S2048x2048.Idx) (q : dot_S2048x1024_S2048x1024_S2048x2048_1_1_0_0_n_n.contr.Idx) :
    (dot_S2048x1024_S2048x1024_S2048x2048_1_1_0_0_n_n.rhsIdx j q 0).val = (j 1).val := by
  unfold DotDims.rhsIdx
  rw [dif_neg (show ¬(0 : Fin S2048x1024.rank) ∈ dot_S2048x1024_S2048x1024_S2048x2048_1_1_0_0_n_n.rhsBatch by decide),
    dif_pos (show (0 : Fin S2048x1024.rank) ∈ dot_S2048x1024_S2048x1024_S2048x2048_1_1_0_0_n_n.rhsNonContracting by decide)]
  rfl

/-- A step's store at entry `j = (p, q)`: what the block held there plus `∑ k, x (p, k) · w (q, k)`. -/
theorem acc_apply (x0 x1 : Vec Ideal S2048x1024 .bf16) (acc : Vec Ideal S2048x2048 .f32) (j : S2048x2048.Idx) :
    k0_pay2 (F := Ideal) x0 x1 acc j
      = acc j + ∑ k : Fin 1024, x0 (ix2 (n0 := 2048) (n1 := 1024) (j 0) k) * x1 (ix2 (n0 := 2048) (n1 := 1024) (j 1) k) := by
  unfold k0_pay2
  simp only [shapeCast_self]
  show acc j + FloatOps.matmul dot_S2048x1024_S2048x1024_S2048x2048_1_1_0_0_n_n none x0 x1
      (constant (F := Ideal) S2048x2048 .f32 0x00000000#32) j = _
  rw [Ideal.matmul_constant_zero_apply,
    ← Equiv.sum_comp (contrEquiv1 dot_S2048x1024_S2048x1024_S2048x2048_1_1_0_0_n_n 1024 rfl rfl).symm]
  refine congrArg (acc j + ·) (Finset.sum_congr rfl fun k _ => ?_)
  have hk := contrEquiv1_symm_val dot_S2048x1024_S2048x1024_S2048x2048_1_1_0_0_n_n 1024 rfl rfl k
  have el : dot_S2048x1024_S2048x1024_S2048x2048_1_1_0_0_n_n.lhsIdx j
      ((contrEquiv1 dot_S2048x1024_S2048x1024_S2048x2048_1_1_0_0_n_n 1024 rfl rfl).symm k)
        = ix2 (n0 := 2048) (n1 := 1024) (j 0) k := funext fun a => Fin.ext (by
    match a with
    | ⟨0, _⟩ => exact lhs_row _ _
    | ⟨1, _⟩ => exact (dot_S2048x1024_S2048x1024_S2048x2048_1_1_0_0_n_n.lhsIdx_val_of_single rfl j _).trans hk)
  have er : dot_S2048x1024_S2048x1024_S2048x2048_1_1_0_0_n_n.rhsIdx j
      ((contrEquiv1 dot_S2048x1024_S2048x1024_S2048x2048_1_1_0_0_n_n 1024 rfl rfl).symm k)
        = ix2 (n0 := 2048) (n1 := 1024) (j 1) k := funext fun a => Fin.ext (by
    match a with
    | ⟨0, _⟩ => exact rhs_row _ _
    | ⟨1, _⟩ => exact (dot_S2048x1024_S2048x1024_S2048x2048_1_1_0_0_n_n.rhsIdx_val_of_single rfl j _).trans hk)
  rw [el, er]

/-- The store that closes a run adds the bias row: at entry `(p, q)` the bias block's entry `(0, q)`. -/
theorem bias_apply (v : Vec Ideal S2048x2048 .f32) (b : Vec Ideal S1x2048 .f32) (j : S2048x2048.Idx) :
    k0_pay3 (F := Ideal) v b j = v j + b (ix2 (n0 := 1) (n1 := 2048) (0 : Fin 1) (j 1)) := by
  obtain ⟨p, q, rfl⟩ : ∃ (p : Fin 2048) (q : Fin 2048), j = ix2 p q := ⟨j 0, j 1, eq_ix2 j⟩
  unfold k0_pay3
  simp only [shapeCast_self]
  show v (ix2 p q) + broadcastTo S2048x2048 b broadcasts_S1x2048_S2048x2048 (ix2 p q) = _
  rw [broadcastTo_1b_ab_apply]

end Cert.MaskedLinear.Body

end
-- ==== Proof.TileExpand.lean ====
/-
  Expanding a 256 × 256 array of tiles to 4096 × 4096, each tile repeated over a 16 × 16 square.

  Both programs do it with the same four layout steps: insert an axis of 16 after the rows (a broadcast), merge it into
  the rows (a reshape), insert an axis of 16 after the columns, merge it into the columns.  Read at an entry `(r, c)`
  the result is the operand at tile `(r / 16, c / 16)`, whatever the elements are — words of a mask, or the same
  words already converted to numbers.
-/
import Idealize.ShloMosaic.Lib.Pipeline.Value
import Idealize.ShloMosaic.Lib.ValueIdx

noncomputable section

namespace Cert.MaskedLinear

open Idealize.ShloMosaic Idealize.ShloMosaic.ValueIdx

/-- The tile that holds entry `i` of the 4096 × 4096 array: row `i₀ / 16`, column `i₁ / 16`. -/
def tileOf (i : (⟨2, ![4096, 4096]⟩ : Shape).Idx) : (⟨2, ![256, 256]⟩ : Shape).Idx :=
  ix2 (n0 := 256) (n1 := 256)
    ⟨(i 0).val / 16, by have h : (i 0).val < 4096 := (i 0).isLt; omega⟩
    ⟨(i 1).val / 16, by have h : (i 1).val < 4096 := (i 1).isLt; omega⟩

/-- The expanded array at entry `i` is the tile array at `tileOf i`. -/
theorem expand_apply {α : Type} (x : (⟨2, ![256, 256]⟩ : Shape).Idx → α)
    (h1 : (⟨2, ![256, 256]⟩ : Shape).BroadcastsInDim ⟨3, ![256, 16, 256]⟩ ![0, 2])
    (h2 : (⟨3, ![256, 16, 256]⟩ : Shape).ShapeCasts ⟨2, ![4096, 256]⟩)
    (h3 : (⟨2, ![4096, 256]⟩ : Shape).BroadcastsInDim ⟨3, ![4096, 256, 16]⟩ ![0, 1])
    (h4 : (⟨3, ![4096, 256, 16]⟩ : Shape).ShapeCasts ⟨2, ![4096, 4096]⟩)
    (i : (⟨2, ![4096, 4096]⟩ : Shape).Idx) :
    shapeCast ⟨2, ![4096, 4096]⟩ (broadcastInDim ⟨3, ![4096, 256, 16]⟩ ![0, 1] h3
      (shapeCast ⟨2, ![4096, 256]⟩ (broadcastInDim ⟨3, ![256, 16, 256]⟩ ![0, 2] h1 x) h2)) h4 i = x (tileOf i) := by
  have hi0 : (i 0).val < 4096 := (i 0).isLt
  have hi1 : (i 1).val < 4096 := (i 1).isLt
  -- columns: entry (r, c) of the merged array is entry (r, c / 16, c % 16) before the merge
  refine (shapeCast_apply _ h4 i (ix3 (n0 := 4096) (n1 := 256) (n2 := 16) ⟨(i 0).val, hi0⟩
    ⟨(i 1).val / 16, by omega⟩ ⟨(i 1).val % 16, by omega⟩) ?_).trans ?_
  · rw [Shape.rowMajor_val_three, Shape.rowMajor_val_two]
    show ((i 0).val * 256 + (i 1).val / 16) * 16 + (i 1).val % 16 = (i 0).val * 4096 + (i 1).val
    omega
  -- the inserted axis of 16 is dropped
  refine (broadcastInDim_apply _ h3 _ _ (ix2 (n0 := 4096) (n1 := 256) ⟨(i 0).val, hi0⟩ ⟨(i 1).val / 16, by omega⟩)
    (fun a => ?_)).trans ?_
  · match a with
    | ⟨0, _⟩ => show (i 0).val = if (4096 : ℕ) = 1 then 0 else (i 0).val; rw [if_neg (by decide)]
    | ⟨1, _⟩ => show (i 1).val / 16 = if (256 : ℕ) = 1 then 0 else (i 1).val / 16; rw [if_neg (by decide)]
  -- rows: entry (r, q) of the merged array is entry (r / 16, r % 16, q) before the merge
  refine (shapeCast_apply _ h2 _ (ix3 (n0 := 256) (n1 := 16) (n2 := 256) ⟨(i 0).val / 16, by omega⟩
    ⟨(i 0).val % 16, by omega⟩ ⟨(i 1).val / 16, by omega⟩) ?_).trans ?_
  · rw [Shape.rowMajor_val_three, Shape.rowMajor_val_two]
    show ((i 0).val / 16 * 16 + (i 0).val % 16) * 256 + (i 1).val / 16 = (i 0).val * 256 + (i 1).val / 16
    omega
  -- the inserted axis of 16 is dropped
  exact broadcastInDim_apply _ h1 x _ (tileOf i) (fun a => match a with
    | ⟨0, _⟩ => by show (i 0).val / 16 = if (256 : ℕ) = 1 then 0 else (i 0).val / 16; rw [if_neg (by decide)]
    | ⟨1, _⟩ => by show (i 1).val / 16 = if (256 : ℕ) = 1 then 0 else (i 1).val / 16; rw [if_neg (by decide)])

end Cert.MaskedLinear

end
-- ==== Proof.BlocksAt.lean ====
/-
  What the kernel's region finds in its three operand arrays, and which entries a grid point's blocks hold.

  Before the region the program prepares, in plain array operations, a narrowed copy of `x` (the same numbers at the
  exact instance), the effective weight `w · (1 + u)` — `u` the tile mask expanded to 4096 × 4096 and read as
  numbers — narrowed likewise, and the bias as one row.  The grid is 4 × 2 × 4: point `t` works on row block `t / 8`
  of `x`, row block `(t / 4) % 2` of the weight (a column block of the result) and contraction block `t % 4`.
-/
import proofs.«132253_j77730318123392_2_alg».proof.Proof.Gen.KernelIdeal.Frame
import proofs.«132253_j77730318123392_2_alg».proof.Proof.TileExpand
import Idealize.ShloMosaic.Lib.StableHlo.Run
import Idealize.ShloMosaic.Lib.IdealHost
import Idealize.ShloMosaic.Lib.ValueIdx

noncomputable section

namespace Cert.MaskedLinear.Ker

open Cert.KernelIdeal Cert.KernelIdeal.Gen Idealize.ShloMosaic Idealize.ShloMosaic.TcCoe Idealize.SL.Sem
open Idealize.ShloMosaic.StableHlo Idealize.ShloMosaic.ValueIdx Cert.MaskedLinear

variable (m : (ℓ : Loc nD τ sig) → Buf (Elt Ideal) ℓ)

/-! ## The inputs' entries, as extended reals -/

/-- Entry `i` of `x`. -/
abbrev xAt (c : Dev nD) (i : S8192x4096.Idx) : EReal := m ((c : Thread nD τ).loc main_arg0) i
/-- Entry `i` of the weight. -/
abbrev wAt (c : Dev nD) (i : S4096x4096.Idx) : EReal := m ((c : Thread nD τ).loc main_arg1) i
/-- The mask at entry `i` of the weight: the word of the tile holding `i`, read as a number. -/
abbrev uAt (c : Dev nD) (i : S4096x4096.Idx) : EReal :=
  FloatOps.uitofp (F := Ideal) .f32 (m ((c : Thread nD τ).loc main_arg3) (tileOf i))
/-- Entry `o` of the bias. -/
abbrev bAt (c : Dev nD) (o : Fin 4096) : EReal := m ((c : Thread nD τ).loc main_arg2) (ix1 (n := 4096) o)

/-! ## The arrays at region entry -/

/-- The narrowed copy of `x` holds `x`'s numbers. -/
theorem x_entry (c : Dev nD) (i : S8192x4096.Idx) :
    (V m c main_v9 : S8192x4096.Idx → EReal) i = xAt m c i := by
  dsimp only [V, hostOps0]
  after_results
  rfl

/-- The effective weight at entry `i`: `w i · (1 + u)`, `u` the word of the tile holding `i` read as a number. -/
theorem weight_entry (c : Dev nD) (i : S4096x4096.Idx) :
    (V m c main_v8 : S4096x4096.Idx → EReal) i
      = wAt m c i * (1 + uAt m c i) := by
  dsimp only [V, hostOps0]
  after_results
  show wAt m c i
      * (Ideal.ofBits .f32 0x3F800000#32
        + shapeCast S4096x4096 (broadcastInDim S4096x256x16 ![0, 1] bcast_S4096x256_S4096x256x16_0_1
            (shapeCast S4096x256 (broadcastInDim S256x16x256 ![0, 2] bcast_S256x256_S256x16x256_0_2
              (uitofp (F := Ideal) .f32 (m ((c : Thread nD τ).loc main_arg3)))) shapeCasts_S256x16x256_S4096x256))
            shapeCasts_S4096x256x16_S4096x4096 i) = _
  rw [Ideal.ofBits_one_f32, expand_apply]
  rfl

/-- The bias as one row: entry `(0, q)` is `bias q`. -/
theorem bias_entry (c : Dev nD) (i : S1x4096.Idx) :
    (V m c main_v10 : S1x4096.Idx → EReal) i = bAt m c (i 1) := by
  dsimp only [V, hostOps0]
  after_results
  show shapeCast S1x4096 (m ((c : Thread nD τ).loc main_arg2)) shapeCasts_S4096_S1x4096 i = _
  refine shapeCast_apply _ _ i (ix1 (n := 4096) (i 1)) ?_
  rw [Shape.rowMajor_val_one, Shape.rowMajor_val_two]
  have h0 : (i 0).val < 1 := (i 0).isLt
  show (i 1).val = (i 0).val * 4096 + (i 1).val
  omega

/-! ## The grid's index maps -/

/-- Which block of each operand point `t` works on, decided over the 32 points. -/
theorem block_of_point : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = 0 ∧ win0_2.index t (1 : Fin 2) = t.val / 4 % 2 :=
  (by decide +kernel : ∀ t : Fin grid0.N, _)

/-! ## The blocks at a point -/

/-- Entry `(p, k)` of `x`'s block at point `t` is `x` at row `2048 · (t / 8) + p`, column `1024 · (t % 4) + k`. -/
theorem x_block (c : Dev nD) (t : Fin cfg0.N) (p : Fin 2048) (k : Fin 1024) (i : S8192x4096.Idx)
    (h0 : (i 0).val = 2048 * (t.val / 8) + p.val) (h1 : (i 1).val = 1024 * (t.val % 4) + k.val) :
    (iblk m c 0 t : Vec Ideal S2048x1024 .bf16) (ix2 (n0 := 2048) (n1 := 1024) p k) = xAt m c i := by
  obtain ⟨e0, e1, -⟩ := block_of_point t
  have hidx : ((cfg0.win 0).blk t).view.emb (ix2 (n0 := 2048) (n1 := 1024) p k) = i := funext fun a => Fin.ext (by
    match a with
    | ⟨0, _⟩ => show win0_0.index t (0 : Fin 2) * 2048 + 1 * p.val = (i 0).val; rw [e0, h0]; omega
    | ⟨1, _⟩ => show win0_0.index t (1 : Fin 2) * 1024 + 1 * k.val = (i 1).val; rw [e1, h1]; omega)
  unfold iblk
  rw [View.read_apply]
  show (V m c main_v9 : S8192x4096.Idx → EReal) (((cfg0.win 0).blk t).view.emb (ix2 (n0 := 2048) (n1 := 1024) p k)) = _
  rw [hidx, x_entry]

/-- Entry `(q, k)` of the weight's block at point `t` is the effective weight at row `2048 · ((t / 4) % 2) + q`,
    column `1024 · (t % 4) + k`. -/
theorem weight_block (c : Dev nD) (t : Fin cfg0.N) (q : Fin 2048) (k : Fin 1024) (i : S4096x4096.Idx)
    (h0 : (i 0).val = 2048 * (t.val / 4 % 2) + q.val) (h1 : (i 1).val = 1024 * (t.val % 4) + k.val) :
    (iblk m c 1 t : Vec Ideal S2048x1024 .bf16) (ix2 (n0 := 2048) (n1 := 1024) q k)
      = wAt m c i * (1 + uAt m c i) := by
  obtain ⟨-, -, e0, e1, -⟩ := block_of_point t
  have hidx : ((cfg0.win 1).blk t).view.emb (ix2 (n0 := 2048) (n1 := 1024) q k) = i := funext fun a => Fin.ext (by
    match a with
    | ⟨0, _⟩ => show win0_1.index t (0 : Fin 2) * 2048 + 1 * q.val = (i 0).val; rw [e0, h0]; omega
    | ⟨1, _⟩ => show win0_1.index t (1 : Fin 2) * 1024 + 1 * k.val = (i 1).val; rw [e1, h1]; omega)
  unfold iblk
  rw [View.read_apply]
  show (V m c main_v8 : S4096x4096.Idx → EReal) (((cfg0.win 1).blk t).view.emb (ix2 (n0 := 2048) (n1 := 1024) q k)) = _
  rw [hidx, weight_entry]

/-- Entry `(0, q)` of the bias block at point `t` is `bias (2048 · ((t / 4) % 2) + q)`. -/
theorem bias_block (c : Dev nD) (t : Fin cfg0.N) (q : Fin 2048) (o : Fin 4096)
    (h : o.val = 2048 * (t.val / 4 % 2) + q.val) :
    (iblk m c 2 t : Vec Ideal S1x2048 .f32) (ix2 (n0 := 1) (n1 := 2048) (0 : Fin 1) q) = bAt m c o := by
  obtain ⟨-, -, -, -, e0, e1⟩ := block_of_point t
  have hcol : (((cfg0.win 2).blk t).view.emb (ix2 (n0 := 1) (n1 := 2048) (0 : Fin 1) q) 1).val = o.val := by
    show win0_2.index t (1 : Fin 2) * 2048 + 1 * q.val = o.val
    rw [e1, h]; omega
  unfold iblk
  rw [View.read_apply]
  show (V m c main_v10 : S1x4096.Idx → EReal) (((cfg0.win 2).blk t).view.emb (ix2 (n0 := 1) (n1 := 2048) (0 : Fin 1) q)) = _
  rw [bias_entry]
  exact congrArg (bAt m c) (Fin.ext hcol)

end Cert.MaskedLinear.Ker

end
-- ==== Proof.SumLaw.lean ====
/-
  The one algebraic law of this certificate, on the extended reals, with no program in sight.

  A row of the result is a contraction over 4096 terms.  One side adds it up in four consecutive runs of 1024 terms,
  starting from zero, every weight scaled by `1 + u`; the other adds two full contractions, one with weights `w · u` and
  one with weights `w`.  Regrouping a finite sum is free on the extended reals (addition there is commutative and
  associative); splitting `a · (b · (1 + c))` into `a · (b · c) + a · b` is not (it fails at the infinities), so that
  step is made on real numbers, which is what finiteness of the inputs provides.
-/
import Idealize.ShloMosaic.PureOps.Ideal

noncomputable section

namespace Cert.MaskedLinear

/-- For real numbers, `a · (b · (1 + c)) = a · (b · c) + a · b`, read in the extended reals. -/
theorem term_split (a b c : ℝ) :
    (a : EReal) * ((b : EReal) * (1 + (c : EReal))) = (a : EReal) * ((b : EReal) * (c : EReal)) + (a : EReal) * (b : EReal) := by
  have h : ((a * (b * (1 + c)) : ℝ) : EReal) = ((a * (b * c) + a * b : ℝ) : EReal) := by
    congr 1; ring
  exact_mod_cast h

/-- Position `k` of run `j`: the contraction index `1024 · j + k`. -/
def pos (j : Fin 4) (k : Fin 1024) : Fin 4096 :=
  ⟨1024 * j.val + k.val, by have := j.isLt; have := k.isLt; omega⟩

/-- A sum over 4096 positions is the sum of its four consecutive runs of 1024. -/
theorem sum_four_runs {β : Type*} [AddCommMonoid β] (f : Fin 4096 → β) :
    ∑ k : Fin 4096, f k = ∑ j : Fin 4, ∑ k : Fin 1024, f (pos j k) := by
  have e := Fintype.sum_equiv (finProdFinEquiv (m := 4) (n := 1024))
    (fun p : Fin 4 × Fin 1024 => f (pos p.1 p.2)) f
    (fun p => congrArg f (Fin.ext (by simp only [pos, finProdFinEquiv_apply_val]; omega)))
  exact e.symm.trans (Fintype.sum_prod_type _)

/-- One run's contribution: the 1024 products of run `j`, each weight scaled by `1 + u`. -/
def run (x w u : Fin 4096 → EReal) (j : Fin 4) : EReal :=
  ∑ k : Fin 1024, x (pos j k) * (w (pos j k) * (1 + u (pos j k)))

/-- The four runs added up from zero, then the offset `b`, are the contraction with weights `w · u` plus the
    contraction with weights `w` plus `b` — when every factor is a real number. -/
theorem runs_eq_split (x w u : Fin 4096 → EReal) (b : EReal)
    (hx : ∀ k, ∃ r : ℝ, x k = r) (hw : ∀ k, ∃ r : ℝ, w k = r) (hu : ∀ k, ∃ r : ℝ, u k = r) :
    ((((0 + run x w u 0) + run x w u 1) + run x w u 2) + run x w u 3) + b
      = ∑ k, x k * (w k * u k) + (∑ k, x k * w k + b) := by
  have hterm : ∀ k, x k * (w k * (1 + u k)) = x k * (w k * u k) + x k * w k := by
    intro k
    obtain ⟨a, ha⟩ := hx k
    obtain ⟨b', hb⟩ := hw k
    obtain ⟨c, hc⟩ := hu k
    rw [ha, hb, hc]
    exact term_split a b' c
  have hsum : ∑ k, x k * (w k * (1 + u k)) = ∑ k, x k * (w k * u k) + ∑ k, x k * w k := by
    rw [← Finset.sum_add_distrib]
    exact Finset.sum_congr rfl fun k _ => hterm k
  rw [← add_assoc, ← hsum, sum_four_runs (fun k => x k * (w k * (1 + u k))), Fin.sum_univ_four, zero_add]
  rfl

end Cert.MaskedLinear

end
-- ==== Proof.FoldAt.lean ====
/-
  One entry of the kernel's result, as four runs added up and the bias.

  The result block that holds entry `(r, o)` is visited at four consecutive grid points, one per contraction block:
  the first stores `0 +` its block product, the next two add theirs, the last adds its own and then the bias row.
  Each block product, read at the entry's place in the block, is one run of 1024 terms of the full contraction of
  row `r` of `x` with row `o` of the effective weight `w · (1 + u)`.
-/
import proofs.«132253_j77730318123392_2_alg».proof.Proof.Gen.KernelIdeal.Value
import proofs.«132253_j77730318123392_2_alg».proof.Proof.BodyAt
import proofs.«132253_j77730318123392_2_alg».proof.Proof.BlocksAt
import proofs.«132253_j77730318123392_2_alg».proof.Proof.SumLaw

noncomputable section

namespace Cert.MaskedLinear.Ker

open Cert.KernelIdeal Cert.KernelIdeal.Gen Idealize.ShloMosaic Idealize.ShloMosaic.TcCoe Idealize.SL.Sem
open Idealize.ShloMosaic.ValueIdx Cert.MaskedLinear

variable (m : (ℓ : Loc nD τ sig) → Buf (Elt Ideal) ℓ)

/-- Row `i₀` of `x` along the contraction axis. -/
abbrev xRow (c : Dev nD) (i : S8192x4096.Idx) : Fin 4096 → EReal :=
  fun k => xAt m c (ix2 (n0 := 8192) (n1 := 4096) (i 0) k)

/-- Row `i₁` of the weight along the contraction axis. -/
abbrev wRow (c : Dev nD) (i : S8192x4096.Idx) : Fin 4096 → EReal :=
  fun k => wAt m c (ix2 (n0 := 4096) (n1 := 4096) (i 1) k)

/-- Row `i₁` of the expanded mask, as numbers, along the contraction axis. -/
abbrev uRow (c : Dev nD) (i : S8192x4096.Idx) : Fin 4096 → EReal :=
  fun k => uAt m c (ix2 (n0 := 4096) (n1 := 4096) (i 1) k)

/-- The three input blocks of grid point `n`: of `x`, of the effective weight, of the bias row. -/
abbrev xBlk (c : Dev nD) (n : ℕ) (h : n < cfg0.N) : Vec Ideal S2048x1024 .bf16 := iblk m c 0 ⟨n, h⟩
abbrev wBlk (c : Dev nD) (n : ℕ) (h : n < cfg0.N) : Vec Ideal S2048x1024 .bf16 := iblk m c 1 ⟨n, h⟩
abbrev bBlk (c : Dev nD) (n : ℕ) (h : n < cfg0.N) : Vec Ideal S1x2048 .f32 := iblk m c 2 ⟨n, h⟩

/-- The block product of point `n`, the `jj`-th point of the run that fills entry `i`'s block, read at `i`'s place
    `y` in the block: run `jj` of the contraction for entry `i`. -/
theorem point_sum (c : Dev nD) (i : S8192x4096.Idx) (n : ℕ) (h : n < cfg0.N) (jj : Fin 4)
    (hn : n = 4 * (2 * ((i 0).val / 2048) + (i 1).val / 2048) + jj.val)
    (y : S2048x2048.Idx) (hy0 : (y 0).val = (i 0).val % 2048) (hy1 : (y 1).val = (i 1).val % 2048) :
    ∑ k : Fin 1024, xBlk m c n h (ix2 (n0 := 2048) (n1 := 1024) (y 0) k) * wBlk m c n h (ix2 (n0 := 2048) (n1 := 1024) (y 1) k)
      = run (xRow m c i) (wRow m c i) (uRow m c i) jj := by
  have hi0 : (i 0).val < 8192 := (i 0).isLt
  have hi1 : (i 1).val < 4096 := (i 1).isLt
  have hj := jj.isLt
  unfold run
  refine Finset.sum_congr rfl fun k _ => ?_
  have hk := k.isLt
  have e1 : xBlk m c n h (ix2 (n0 := 2048) (n1 := 1024) (y 0) k)
      = xAt m c (ix2 (n0 := 8192) (n1 := 4096) (i 0) (pos jj k)) :=
    x_block m c ⟨n, h⟩ (y 0) k (ix2 (n0 := 8192) (n1 := 4096) (i 0) (pos jj k))
      (by show (i 0).val = 2048 * (n / 8) + (y 0).val; omega)
      (by show 1024 * jj.val + k.val = 1024 * (n % 4) + k.val; omega)
  have e2 : wBlk m c n h (ix2 (n0 := 2048) (n1 := 1024) (y 1) k)
      = wAt m c (ix2 (n0 := 4096) (n1 := 4096) (i 1) (pos jj k))
        * (1 + uAt m c (ix2 (n0 := 4096) (n1 := 4096) (i 1) (pos jj k))) :=
    weight_block m c ⟨n, h⟩ (y 1) k (ix2 (n0 := 4096) (n1 := 4096) (i 1) (pos jj k))
      (by show (i 1).val = 2048 * (n / 4 % 2) + (y 1).val; omega)
      (by show 1024 * jj.val + k.val = 1024 * (n % 4) + k.val; omega)
  rw [e1, e2]

/-- The first point of a run leaves `0 +` its block product. -/
theorem reset_entry (c : Dev nD) (n : ℕ) (h : n < cfg0.N) (y : S2048x2048.Idx) :
    Value.reset3 m c n h y
      = 0 + ∑ k : Fin 1024, xBlk m c n h (ix2 (n0 := 2048) (n1 := 1024) (y 0) k)
          * wBlk m c n h (ix2 (n0 := 2048) (n1 := 1024) (y 1) k) := by
  unfold Value.reset3
  refine (Body.acc_apply (xBlk m c n h) (wBlk m c n h) (k0_pay1 (F := Ideal)) y).trans ?_
  rw [Body.zero_apply]

/-- A middle point of a run adds its block product to what the point before left. -/
theorem step_entry_mid (c : Dev nD) (n : ℕ) (h : n < cfg0.N) (hn : n % 4 = 1 ∨ n % 4 = 2)
    (acc : Vec Ideal S2048x2048 .f32) (y : S2048x2048.Idx) :
    Value.step3 m c n h acc y
      = acc y + ∑ k : Fin 1024, xBlk m c n h (ix2 (n0 := 2048) (n1 := 1024) (y 0) k)
          * wBlk m c n h (ix2 (n0 := 2048) (n1 := 1024) (y 1) k) := by
  unfold Value.step3
  rw [if_pos (by omega)]
  exact Body.acc_apply (xBlk m c n h) (wBlk m c n h) acc y

/-- The last point of a run adds its block product, then the bias row. -/
theorem step_entry_last (c : Dev nD) (n : ℕ) (h : n < cfg0.N) (hn : n % 4 = 3)
    (acc : Vec Ideal S2048x2048 .f32) (y : S2048x2048.Idx) :
    Value.step3 m c n h acc y
      = (acc y + ∑ k : Fin 1024, xBlk m c n h (ix2 (n0 := 2048) (n1 := 1024) (y 0) k)
          * wBlk m c n h (ix2 (n0 := 2048) (n1 := 1024) (y 1) k))
        + bBlk m c n h (ix2 (n0 := 1) (n1 := 2048) (0 : Fin 1) (y 1)) := by
  unfold Value.step3
  rw [if_neg (by omega), if_pos (by omega)]
  refine (Body.bias_apply (k0_pay2 (F := Ideal) (xBlk m c n h) (wBlk m c n h) acc) (bBlk m c n h) y).trans ?_
  rw [Body.acc_apply]

/-- The run's fold at `i`'s place in its block: the four runs added up from zero, then the bias. -/
theorem fold_entry (c : Dev nD) (i : S8192x4096.Idx) (R : ℕ) (hR : R = 2 * ((i 0).val / 2048) + (i 1).val / 2048)
    (h : 4 * R + 3 < cfg0.N) (y : S2048x2048.Idx) (hy0 : (y 0).val = (i 0).val % 2048) (hy1 : (y 1).val = (i 1).val % 2048) :
    Pipeline.accAt (Value.reset3 m c) (Value.step3 m c) (4 * R) 3 h y
      = ((((0 + run (xRow m c i) (wRow m c i) (uRow m c i) 0) + run (xRow m c i) (wRow m c i) (uRow m c i) 1)
          + run (xRow m c i) (wRow m c i) (uRow m c i) 2) + run (xRow m c i) (wRow m c i) (uRow m c i) 3)
        + bAt m c (i 1) := by
  have hi0 : (i 0).val < 8192 := (i 0).isLt
  have hi1 : (i 1).val < 4096 := (i 1).isLt
  rw [Pipeline.accAt_succ, Pipeline.accAt_succ, Pipeline.accAt_succ, Pipeline.accAt_zero]
  rw [step_entry_last m c (4 * R + (2 + 1)) _ (by omega) _ y,
    step_entry_mid m c (4 * R + (1 + 1)) _ (by omega) _ y,
    step_entry_mid m c (4 * R + (0 + 1)) _ (by omega) _ y,
    reset_entry m c (4 * R) _ y,
    point_sum m c i (4 * R + (2 + 1)) _ 3 (by subst hR; rfl) y hy0 hy1,
    point_sum m c i (4 * R + (1 + 1)) _ 2 (by subst hR; rfl) y hy0 hy1,
    point_sum m c i (4 * R + (0 + 1)) _ 1 (by subst hR; rfl) y hy0 hy1,
    point_sum m c i (4 * R) _ 0 (by subst hR; rfl) y hy0 hy1]
  have eb : bBlk m c (4 * R + (2 + 1)) h (ix2 (n0 := 1) (n1 := 2048) (0 : Fin 1) (y 1)) = bAt m c (i 1) :=
    bias_block m c ⟨4 * R + (2 + 1), h⟩ (y 1) (i 1)
      (by show (i 1).val = 2048 * ((4 * R + (2 + 1)) / 4 % 2) + (y 1).val; omega)
  rw [eb]

/-- Entry `i` of the kernel's result array. -/
theorem G3_entry (c : Dev nD) (i : S8192x4096.Idx) :
    Value.G3 m c i
      = ((((0 + run (xRow m c i) (wRow m c i) (uRow m c i) 0) + run (xRow m c i) (wRow m c i) (uRow m c i) 1)
          + run (xRow m c i) (wRow m c i) (uRow m c i) 2) + run (xRow m c i) (wRow m c i) (uRow m c i) 3)
        + bAt m c (i 1) := by
  have hi0 : (i 0).val < 8192 := (i 0).isLt
  have hi1 : (i 1).val < 4096 := (i 1).isLt
  have hN : cfg0.N = 32 := N_0
  have hr : Value.run3Of i = 2 * ((i 0).val / 2048) + (i 1).val / 2048 := by
    show 2 * ((i 0).val / 2048 - 0) + 1 * ((i 1).val / 2048 - 0) = _
    omega
  unfold Value.G3
  rw [dif_pos (by rw [hr, hN]; omega)]
  exact fold_entry m c i (Value.run3Of i) hr _ (Value.loc3Of i) rfl rfl

end Cert.MaskedLinear.Ker

end
-- ==== Proof.RefAt.lean ====
/-
  The reference's result at one entry.

  Entry `(r, o)` of the reference is the contraction of row `r` of `x` with row `o` of the masked weight
  `w · u`, plus the contraction with row `o` of `w` itself plus `bias o`; the mask value `u` at `(o, k)` is the word
  of tile `(o / 16, k / 16)` read as a number.  Each stage is read at an index by the generated read lemmas; what is
  added here is the expansion of the tile array and the index bookkeeping.
-/
import proofs.«132253_j77730318123392_2_alg».proof.Proof.Gen.ReferenceIdeal.Read
import proofs.«132253_j77730318123392_2_alg».proof.Proof.TileExpand

noncomputable section

namespace Cert.MaskedLinear.Ref

open Cert.ReferenceIdeal Cert.ReferenceIdeal.Gen Cert.ReferenceIdeal.Read
open Idealize.ShloMosaic Idealize.ShloMosaic.ValueIdx Cert.MaskedLinear

/-- The expanded mask at entry `j` is the word of the tile holding `j`. -/
theorem mask_apply (x3 : (⟨S256x256, .i1⟩ : BufTy).Contents (Elt Ideal)) (j : S4096x4096.Idx) :
    val_main_v3 (F := Ideal) x3 j = x3 (tileOf j) := by
  unfold val_main_v3 val_main_v2 val_main_v1 val_main_v0
  exact expand_apply x3 _ _ _ _ j

/-- Entry `i = (r, o)` of the reference's result. -/
theorem result_apply (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S256x256, .i1⟩ : BufTy).Contents (Elt Ideal)) (i : S8192x4096.Idx) :
    val_main_v11 (F := Ideal) x0 x1 x2 x3 i
      = ∑ k : Fin 4096, x0 (ix2 (n0 := 8192) (n1 := 4096) (i 0) k)
          * (x1 (ix2 (n0 := 4096) (n1 := 4096) (i 1) k)
            * FloatOps.uitofp (F := Ideal) .f32 (x3 (tileOf (ix2 (n0 := 4096) (n1 := 4096) (i 1) k))))
        + (∑ k : Fin 4096, x0 (ix2 (n0 := 8192) (n1 := 4096) (i 0) k) * x1 (ix2 (n0 := 4096) (n1 := 4096) (i 1) k)
          + x2 (ix1 (n := 4096) (i 1))) := by
  have el6 : ∀ k, lidx_main_v6 i k = ix2 (n0 := 8192) (n1 := 4096) (i 0) k := fun k =>
    funext fun a => match a with | ⟨0, _⟩ => rfl | ⟨1, _⟩ => rfl
  have er6 : ∀ k, ridx_main_v6 i k = ix2 (n0 := 4096) (n1 := 4096) (i 1) k := fun k =>
    funext fun a => match a with | ⟨0, _⟩ => rfl | ⟨1, _⟩ => rfl
  have el7 : ∀ k, lidx_main_v7 i k = ix2 (n0 := 8192) (n1 := 4096) (i 0) k := fun k =>
    funext fun a => match a with | ⟨0, _⟩ => rfl | ⟨1, _⟩ => rfl
  have er7 : ∀ k, ridx_main_v7 i k = ix2 (n0 := 4096) (n1 := 4096) (i 1) k := fun k =>
    funext fun a => match a with | ⟨0, _⟩ => rfl | ⟨1, _⟩ => rfl
  have eb : idx_main_v8 (idx_main_v9 i) = ix1 (n := 4096) (i 1) :=
    funext fun a => match a with | ⟨0, _⟩ => rfl
  rw [val_main_v11_apply, val_main_v6_apply, val_main_v10_apply, val_main_v7_apply, val_main_v9_apply, val_main_v8_apply]
  simp only [val_main_v5_apply, val_main_v4_apply, mask_apply, el6, er6, el7, er7, eb, Ideal.addf_def, Ideal.mulf_def]

end Cert.MaskedLinear.Ref

end
-- ==== Proof.FiniteInputs.lean ====
/-
  From the precondition to real numbers.

  The precondition says, of each of `x`, `weight` and `bias`, that every entry's absolute value compares below the
  pattern of +∞ — three reductions by "and", joined by "and".  An extended real whose absolute value is below +∞ is
  neither infinity, so it is a real number: this is what lets the one distributive step of the proof go through.
-/
import proofs.«132253_j77730318123392_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.MaskedLinear

open Idealize.ShloMosaic Idealize.ShloMosaic.ValueIdx

/-- The f32 pattern `0x7F800000` is +∞. -/
theorem inf_pattern : Ideal.ofBits .f32 0x7F800000#32 = (⊤ : EReal) := by
  simp [Ideal.ofBits, Ideal.ieee]

/-- An extended real whose absolute value compares below +∞ is a real number. -/
theorem real_of_abs_lt_inf (a : Ideal .f32)
    (h : FloatOps.cmpf (F := Ideal) .olt (FloatOps.absf a) (Ideal.ofBits .f32 0x7F800000#32) = 1#1) :
    ∃ r : ℝ, a = (r : EReal) := by
  rw [Ideal.cmpf_def, Ideal.absf_def, inf_pattern] at h
  have hlt : max a (-a) < (⊤ : EReal) := by
    by_contra hn
    simp [Ideal.cmp, hn] at h
  induction a using EReal.rec with
  | bot => simp at hlt
  | coe r => exact ⟨r, rfl⟩
  | top => simp at hlt

/-- Under the precondition every entry of the three float inputs is a real number. -/
theorem real_inputs [Cert.Pre_finite_inputs.Facts]
    (x0 : FVec Ideal Cert.Pre_finite_inputs.S8192x4096 .f32) (x1 : FVec Ideal Cert.Pre_finite_inputs.S4096x4096 .f32)
    (x2 : FVec Ideal Cert.Pre_finite_inputs.S4096 .f32) (x3 : IVec Cert.Pre_finite_inputs.S256x256 1)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h ix0
  dsimp only [Cert.Pre_finite_inputs.fn] at h'
  obtain ⟨hAB, hC⟩ := IntOp.andi_eq_one.1 h'
  obtain ⟨hA, hB⟩ := IntOp.andi_eq_one.1 hAB
  haveI : Subsingleton Cert.Pre_finite_inputs.S_.Idx := ⟨fun a b => funext fun d => d.elim0⟩
  refine ⟨fun i => ?_, fun i => ?_, fun i => ?_⟩
  · exact real_of_abs_lt_inf (x0 i) (Host.reduce_andi_all _ _ _ _ ix0 hA i)
  · exact real_of_abs_lt_inf (x1 i) (Host.reduce_andi_all _ _ _ _ ix0 hB i)
  · exact real_of_abs_lt_inf (x2 i) (Host.reduce_andi_all _ _ _ _ ix0 hC i)

end Cert.MaskedLinear

end
-- ==== Proof.Bridge.lean ====
/-
  The two programs compute one function of the inputs.

  Entry `(r, o)` of the kernel's result is four runs of the contraction of `x`'s row `r` with the effective
  weight's row `o`, weights `w · (1 + u)`, added up from zero, plus `bias o`.  Entry `(r, o)` of the reference is the
  contraction with weights `w · u`, plus the contraction with weights `w` plus `bias o`.  Under the precondition every
  entry of `x`, `w` and the bias is a real number, and the mask's values are the numbers 0 and 1 by construction, so
  the two agree: regroup the four runs into one sum and distribute `1 + u` term by term.
-/
import proofs.«132253_j77730318123392_2_alg».proof.Proof.FoldAt
import proofs.«132253_j77730318123392_2_alg».proof.Proof.RefAt
import proofs.«132253_j77730318123392_2_alg».proof.Proof.FiniteInputs

noncomputable section

namespace Cert.MaskedLinear

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Under the precondition, the reference's result computed from the kernel's argument arrays is the kernel's
    result array. -/
theorem result_eq [Cert.Pre_finite_inputs.Facts] (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    Cert.ReferenceIdeal.Read.val_main_v11 (F := Ideal) (m ((c : Thread nD τ).loc main_arg0)) (m ((c : Thread nD τ).loc main_arg1))
      (m ((c : Thread nD τ).loc main_arg2)) (m ((c : Thread nD τ).loc main_arg3)) = Cert.KernelIdeal.Value.G3 m c := by
  obtain ⟨hx, hw, -⟩ := real_inputs _ _ _ _ hpre
  funext i
  rw [Ref.result_apply, Ker.G3_entry]
  exact (runs_eq_split (Ker.xRow m c i) (Ker.wRow m c i) (Ker.uRow m c i) (Ker.bAt m c (i 1))
    (fun k => hx _) (fun k => hw _) (fun k => ⟨_, rfl⟩)).symm

end Cert.MaskedLinear

end
-- ==== Proof.lean ====
/-
  A linear layer with a block-sparse residual: `x · (W ∘ M)ᵀ + (x · Wᵀ + b)`, `M` a 0/1 mask constant on 16 × 16 tiles,
  against a kernel that computes `x · (W ∘ (1 + M))ᵀ + b` as one matrix product, tiled 2048 × 2048 over the result and
  accumulated over four contraction blocks of 1024 in the output block (zeroed at the first, the bias added at the last).

  At the exact instance a change of float format is the identity, so the kernel's narrowed operands are `x` and
  `W ∘ (1 + M)` themselves, and both matrix products are plain sums.  Entry by entry the two results differ by the
  grouping of a finite sum — free on the extended reals — and by one use of distributivity,
  `x · (w · (1 + u)) = x · (w · u) + x · w`, which needs the factors to be real numbers: that is where the precondition
  (every float input finite) is used; the mask's values are 0 or 1 whatever the input.

  The idealization rewrote nothing, so the kernel's conjunct about it is trivial; the three frames are the generated
  runs with the results dropped.
-/
import proofs.«132253_j77730318123392_2_alg».proof.Defs
import proofs.«132253_j77730318123392_2_alg».proof.Proof.Gen.Kernel.Frame
import proofs.«132253_j77730318123392_2_alg».proof.Proof.Gen.KernelIdeal.Value
import proofs.«132253_j77730318123392_2_alg».proof.Proof.Gen.Pre_finite_inputs
import proofs.«132253_j77730318123392_2_alg».proof.Proof.Gen.ReferenceIdeal.Run
import proofs.«132253_j77730318123392_2_alg».proof.Proof.Bridge
import Idealize.ShloMosaic.Adequacy
import Idealize.ShloMosaic.Init

noncomputable section

namespace Cert.Proof

open Idealize.ShloMosaic Idealize.SL.Sem

/-- The idealized kernel runs and leaves its arguments unchanged: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments unchanged: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's, which the
    reference's term equals under the precondition. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.MaskedLinear.result_eq m c (hpre c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
